-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x128x256 : Shape := ⟨3, ![256, 128, 256]⟩
abbrev S128x256x1024 : Shape := ⟨3, ![128, 256, 1024]⟩
abbrev S1x1024 : Shape := ⟨2, ![1, 1024]⟩
abbrev S_ : Shape := ⟨0, ![]⟩

class Facts : Prop where
  bcast_S_S256x128x256 : S_.BroadcastsInDim S256x128x256 (![] : Fin 0 → Fin S256x128x256.rank)
  reducesTo_S256x128x256_S_d0_1_2 : S256x128x256.ReducesTo [0, 1, 2] S_
  h_S_ : 0 < S_.numel
  bcast_S_S128x256x1024 : S_.BroadcastsInDim S128x256x1024 (![] : Fin 0 → Fin S128x256x1024.rank)
  reducesTo_S128x256x1024_S_d0_1_2 : S128x256x1024.ReducesTo [0, 1, 2] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  main_v18

def fn {F : FTy → Type} [FloatOps F] (main_arg0 : FVec F S256x128x256 .f32) (main_arg1 : FVec F S128x256x1024 .f32) (main_arg2 : FVec F S1x1024 .f32) (main_arg3 : FVec F S1x1024 .f32) : IVec S_ 1 :=
  let main_v0 : FVec F S256x128x256 .f32 := Host.absf main_arg0
  let main_cst : FVec F S_ .f32 := constant S_ .f32 0x7F800000#32
  let main_v1 : FVec F S256x128x256 .f32 := broadcastInDim S256x128x256 ![] bcast_S_S256x128x256 main_cst
  let main_v2 : IVec S256x128x256 1 := cmpf .olt main_v0 main_v1
  let main_c : IVec S_ 1 := constantI S_ 1 1#1
  let main_v3 : IVec S_ 1 := (fun x v => Host.reduce IntOp.andi x v reducesTo_S256x128x256_S_d0_1_2 h_S_) main_v2 main_c
  let main_v4 : FVec F S128x256x1024 .f32 := Host.absf main_arg1
  let main_cst_0 : FVec F S_ .f32 := constant S_ .f32 0x7F800000#32
  let main_v5 : FVec F S128x256x1024 .f32 := broadcastInDim S128x256x1024 ![] bcast_S_S128x256x1024 main_cst_0
  let main_v6 : IVec S128x256x1024 1 := cmpf .olt main_v4 main_v5
  let main_c_1 : IVec S_ 1 := constantI S_ 1 1#1
  let main_v7 : IVec S_ 1 := (fun x v => Host.reduce IntOp.andi x v reducesTo_S128x256x1024_S_d0_1_2 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_v13 main_v16
-- ==== Kernel.lean ====
abbrev S256x128x256 : Shape := ⟨3, ![256, 128, 256]⟩
abbrev S128x256x1024 : Shape := ⟨3, ![128, 256, 1024]⟩
abbrev S1x1024 : Shape := ⟨2, ![1, 1024]⟩
abbrev S256x1024 : Shape := ⟨2, ![256, 1024]⟩
abbrev S256x8x256 : Shape := ⟨3, ![256, 8, 256]⟩
abbrev S8x256x1024 : Shape := ⟨3, ![8, 256, 1024]⟩
abbrev S256x2048 : Shape := ⟨2, ![256, 2048]⟩
abbrev S2048x1024 : Shape := ⟨2, ![2048, 1024]⟩

abbrev nBuf : Space → Nat
  | .hbm => 5
  | .vmem => 7
  | .smem => 0
  | _ => 0

abbrev bufTy : (tb : Table) → Fin (tcTables nBuf tb) → BufTy
  | .hbm, ⟨0, _⟩ => ⟨S256x128x256, .f32⟩
  | .hbm, ⟨1, _⟩ => ⟨S128x256x1024, .f32⟩
  | .hbm, ⟨2, _⟩ => ⟨S1x1024, .f32⟩
  | .hbm, ⟨3, _⟩ => ⟨S1x1024, .f32⟩
  | .hbm, ⟨4, _⟩ => ⟨S256x1024, .f32⟩
  | .local _ .vmem, ⟨0, _⟩ => ⟨S256x8x256, .f32⟩
  | .local _ .vmem, ⟨1, _⟩ => ⟨S256x8x256, .f32⟩
  | .local _ .vmem, ⟨2, _⟩ => ⟨S8x256x1024, .f32⟩
  | .local _ .vmem, ⟨3, _⟩ => ⟨S8x256x1024, .f32⟩
  | .local _ .vmem, ⟨4, _⟩ => ⟨S1x1024, .f32⟩
  | .local _ .vmem, ⟨5, _⟩ => ⟨S1x1024, .f32⟩
  | .local _ .vmem, ⟨6, _⟩ => ⟨S256x1024, .f32⟩
  | _, _ => ⟨S256x128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x8x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S256x8x256_S256x8x256_0_0_0 : ∀ a, (![0, 0, 0] : Fin 3 → Nat) a + S256x8x256.size a ≤ S256x8x256.size a
  h_S256x8x256 : 0 < S256x8x256.numel
  bitsLt_bf16_f32 : FTy.bits .bf16 < FTy.bits .f32
  shapeCasts_S256x8x256_S256x2048 : S256x8x256.ShapeCasts S256x2048
  inb_S8x256x1024_S8x256x1024_0_0_0 : ∀ a, (![0, 0, 0] : Fin 3 → Nat) a + S8x256x1024.size a ≤ S8x256x1024.size a
  h_S8x256x1024 : 0 < S8x256x1024.numel
  shapeCasts_S8x256x1024_S2048x1024 : S8x256x1024.ShapeCasts S2048x1024
  inb_S1x1024_S1x1024_0_0 : ∀ a, (![0, 0] : Fin 2 → Nat) a + S1x1024.size a ≤ S1x1024.size a
  h_S1x1024 : 0 < S1x1024.numel
  broadcasts_S1x1024_S256x1024 : S1x1024.Broadcasts S256x1024
  dot_S256x2048_S2048x1024_S256x1024_1_0_0_1_n_n_wf : DotDims.WF S256x2048 S2048x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8x256.size a ≤ S256x128x256.size a
  hwx0_0 : ∀ i : grid0.Coords, EltTy.bits .f32 = 32 ∨ (Rect.block (s := S256x128x256) S256x8x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x256x1024.size a ≤ S128x256x1024.size a
  hwx0_1 : ∀ i : grid0.Coords, EltTy.bits .f32 = 32 ∨ (Rect.block (s := S128x256x1024) S8x256x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x1024.size a ≤ S256x1024.size a
  hwx0_4 : ∀ i : grid0.Coords, EltTy.bits .f32 = 32 ∨ (Rect.block (s := S256x1024) S256x1024.size (cc0_transform_4 i) (hinb0_4 i)).WholeWords (EltTy.packing .f32)

variable [Facts₀]

def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf

abbrev win0_0 : Pipeline.Window sig grid0 :=
  Pipeline.Window.ofSpec (Memref.whole main_arg0) S256x8x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S256x1024.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S256x128x256 : Shape := ⟨3, ![256, 128, 256]⟩
abbrev S128x256x1024 : Shape := ⟨3, ![128, 256, 1024]⟩
abbrev S1x1024 : Shape := ⟨2, ![1, 1024]⟩
abbrev S128x256x256 : Shape := ⟨3, ![128, 256, 256]⟩
abbrev S256x1024 : Shape := ⟨2, ![256, 1024]⟩
abbrev S1x256x256 : Shape := ⟨3, ![1, 256, 256]⟩
abbrev S1x256x128 : Shape := ⟨3, ![1, 256, 128]⟩
abbrev S1x128 : Shape := ⟨2, ![1, 128]⟩
abbrev S256x128 : Shape := ⟨2, ![256, 128]⟩
abbrev S256x256 : Shape := ⟨2, ![256, 256]⟩

abbrev nBuf : Space → Nat
  | .hbm => 6
  | .vmem => 11
  | .smem => 0
  | _ => 0

abbrev bufTy : (tb : Table) → Fin (tcTables nBuf tb) → BufTy
  | .hbm, ⟨0, _⟩ => ⟨S256x128x256, .f32⟩
  | .hbm, ⟨1, _⟩ => ⟨S128x256x1024, .f32⟩
  | .hbm, ⟨2, _⟩ => ⟨S1x1024, .f32⟩
  | .hbm, ⟨3, _⟩ => ⟨S1x1024, .f32⟩
  | .hbm, ⟨4, _⟩ => ⟨S128x256x256, .f32⟩
  | .hbm, ⟨5, _⟩ => ⟨S256x1024, .f32⟩
  | .local _ .vmem, ⟨0, _⟩ => ⟨S1x256x256, .f32⟩
  | .local _ .vmem, ⟨1, _⟩ => ⟨S1x256x256, .f32⟩
  | .local _ .vmem, ⟨2, _⟩ => ⟨S1x256x128, .f32⟩
  | .local _ .vmem, ⟨3, _⟩ => ⟨S1x256x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | _, _ => ⟨S256x128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 128], ![false, false]⟩

def k0_cond2 (i : grid0.Coords) : BitVec 1 :=
  let arg1 : BitVec 32 := BitVec.ofNat 32 (i 1).val
  let c127_i32 : BitVec 32 := 127#32
  let v13 : BitVec 1 := Scalar.cmpi .eq arg1 c127_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  transposes_S256x128x256_S128x256x256_1_0_2 : S256x128x256.Transposes [1, 0, 2] S128x256x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  inb_S1x256x128_S1x256x128_0_0_0 : ∀ a, (![0, 0, 0] : Fin 3 → Nat) a + S1x256x128.size a ≤ S1x256x128.size a
  h_S1x256x128 : 0 < S1x256x128.numel
  shapeCasts_S1x256x128_S256x128 : S1x256x128.ShapeCasts S256x128
  inb_S1x128_S1x128_0_0 : ∀ a, (![0, 0] : Fin 2 → Nat) a + S1x128.size a ≤ S1x128.size a
  h_S1x128 : 0 < S1x128.numel
  broadcasts_S1x128_S256x128 : S1x128.Broadcasts S256x128
  dot_S256x256_S256x128_S256x128_1_0_0_1_n_n_wf : DotDims.WF S256x256 S256x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x256.size a ≤ S128x256x256.size a
  hwx0_0 : ∀ i : grid0.Coords, EltTy.bits .f32 = 32 ∨ (Rect.block (s := S128x256x256) S1x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x128.size a ≤ S128x256x1024.size a
  hwx0_1 : ∀ i : grid0.Coords, EltTy.bits .f32 = 32 ∨ (Rect.block (s := S128x256x1024) S1x256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x1024.size a
  hwx0_2 : ∀ i : grid0.Coords, EltTy.bits .f32 = 32 ∨ (Rect.block (s := S1x1024) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x1024.size a
  hwx0_3 : ∀ i : grid0.Coords, EltTy.bits .f32 = 32 ∨ (Rect.block (s := S1x1024) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x128.size a ≤ S256x1024.size a
  hwx0_4 : ∀ i : grid0.Coords, EltTy.bits .f32 = 32 ∨ (Rect.block (s := S256x1024) S256x128.size (cc0_transform_4 i) (hinb0_4 i)).WholeWords (EltTy.packing .f32)

variable [Facts₀]

def dot_S256x256_S256x128_S256x128_1_0_0_1_n_n : DotDims S256x256 S256x128 S256x128 where
  lhsContracting := [1]
  rhsContracting := [0]
  lhsNonContracting := [0]
  rhsNonContracting := [1]
  lhsBatch := []
  rhsBatch := []
  wf := dot_S256x256_S256x128_S256x128_1_0_0_1_n_n_wf

abbrev win0_0 : Pipeline.Window sig grid0 :=
  Pipeline.Window.ofSpec (Memref.whole main_v0) S1x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x256x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S256x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== Proof.Contraction.lean ====
/-
  The result both programs compute, as one function of the four argument arrays.

  With x of shape [256, 128, 256] (row, token, feature), w of shape [128, 256, 1024] (token, feature, column) and the
  two rows b and s of shape [1, 1024], entry (p, q) of the result is

      (sum over tokens t and features d of x[p, t, d] * w[t, d, q]  +  b[0, q]) * s[0, q].

  The double sum is taken over one flat position r = 256 t + d, r < 32768, so that any way of cutting the 32768
  positions into consecutive chunks (16 chunks of 2048 positions, or 128 chunks of 256) is the same sum: a finite sum
  over a range splits at any point, a law of commutative additive monoids that needs no finiteness of the terms.
  Entries are read through 'at3', which extends an array by 0 outside its extents, so that positions are plain
  natural numbers (a chunk's offset plus a position inside the chunk) with no bound carried in the index.
-/
import Idealize.ShloMosaic.PureOps.Ideal
import Idealize.ShloMosaic.Lib.ValueIdx

noncomputable section

namespace Cert.Contraction

open Idealize.ShloMosaic Idealize.ShloMosaic.ValueIdx

/-- Entry (p, q, r) of a rank-3 array of extended reals, 0 outside its extents. -/
def at3 {a b c : ℕ} (A : (⟨3, ![a, b, c]⟩ : Shape).Idx → EReal) (p q r : ℕ) : EReal :=
  if h : p < a ∧ q < b ∧ r < c then A (ix3 ⟨p, h.1⟩ ⟨q, h.2.1⟩ ⟨r, h.2.2⟩) else 0

/-- At an index of the array, read through its three coordinates' values, it is the array's entry. -/
theorem at3_of_val {a b c : ℕ} (A : (⟨3, ![a, b, c]⟩ : Shape).Idx → EReal) (j : (⟨3, ![a, b, c]⟩ : Shape).Idx)
    {p q r : ℕ} (h0 : (j 0).val = p) (h1 : (j 1).val = q) (h2 : (j 2).val = r) : at3 A p q r = A j := by
  subst h0 h1 h2
  unfold at3
  rw [dif_pos ⟨(j 0).isLt, (j 1).isLt, (j 2).isLt⟩]
  exact congrArg A (eq_ix3 j).symm

/-- The product at flat position r of the contraction (token r / 256, feature r % 256), for row p and column q. -/
def term (X : (⟨3, ![256, 128, 256]⟩ : Shape).Idx → EReal) (W : (⟨3, ![128, 256, 1024]⟩ : Shape).Idx → EReal)
    (p q r : ℕ) : EReal :=
  at3 X p (r / 256) (r % 256) * at3 W (r / 256) (r % 256) q

/-- Row p of x against column q of w over the first n flat positions. -/
def dotTo (X : (⟨3, ![256, 128, 256]⟩ : Shape).Idx → EReal) (W : (⟨3, ![128, 256, 1024]⟩ : Shape).Idx → EReal)
    (p q n : ℕ) : EReal :=
  ∑ r ∈ Finset.range n, term X W p q r

/-- n consecutive chunks of l positions each are the first l * n positions. -/
theorem sum_chunks {M : Type*} [AddCommMonoid M] (f : ℕ → M) (l n : ℕ) :
    ∑ s ∈ Finset.range n, ∑ k ∈ Finset.range l, f (l * s + k) = ∑ r ∈ Finset.range (l * n), f r := by
  induction n with
  | zero => simp
  | succ n ih => rw [Finset.sum_range_succ, ih, Nat.mul_succ, Finset.sum_range_add]

/-- The whole result: the full contraction, plus the bias row, times the scale row. -/
def G (X : (⟨3, ![256, 128, 256]⟩ : Shape).Idx → EReal) (W : (⟨3, ![128, 256, 1024]⟩ : Shape).Idx → EReal)
    (B S : (⟨2, ![1, 1024]⟩ : Shape).Idx → EReal) : (⟨2, ![256, 1024]⟩ : Shape).Idx → EReal := fun j =>
  (dotTo X W (j 0).val (j 1).val 32768 + B (ix2 (0 : Fin 1) (j 1))) * S (ix2 (0 : Fin 1) (j 1))

end Cert.Contraction

end
-- ==== Proof.KernelPayload.lean ====
/-
  The kernel body's three stored values, read at an entry (p, q) of the [256, 1024] block, over the extended reals.

  * the first store of the first grid point writes 0 everywhere;
  * every grid point adds to the block a product of the point's x block [256, 8, 256] and w block [8, 256, 1024],
    both flattened over (token, feature) to a contraction of length 2048: entry (p, q) gains the sum over the flat
    positions r < 2048 of x[p, r / 256, r % 256] * w[r / 256, r % 256, q] (the narrowing of the operands to a shorter
    float format is the identity on extended reals, and the product unit accumulates into a zero block);
  * the last grid point then adds the bias row and multiplies by the scale row.
-/
import proofs.«148201_g2000206349046742_pallaspilot1_57_14_alg».proof.Proof.Gen.KernelIdeal.Skeleton
import proofs.«148201_g2000206349046742_pallaspilot1_57_14_alg».proof.Proof.Contraction
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx Cert.Contraction

/-! ## The product's operand indices: row and contracted position on the left, contracted position and column on the right -/

theorem lhs_row (i : S256x1024.Idx) (k : dot_S256x2048_S2048x1024_S256x1024_1_0_0_1_n_n.contr.Idx) :
    (dot_S256x2048_S2048x1024_S256x1024_1_0_0_1_n_n.lhsIdx i k 0).val = (i 0).val := by
  unfold DotDims.lhsIdx
  rw [dif_neg (show ¬(0 : Fin S256x2048.rank) ∈ dot_S256x2048_S2048x1024_S256x1024_1_0_0_1_n_n.lhsBatch by decide),
    dif_pos (show (0 : Fin S256x2048.rank) ∈ dot_S256x2048_S2048x1024_S256x1024_1_0_0_1_n_n.lhsNonContracting by decide)]
  rfl

theorem lhs_pos (i : S256x1024.Idx) (k : dot_S256x2048_S2048x1024_S256x1024_1_0_0_1_n_n.contr.Idx) :
    (dot_S256x2048_S2048x1024_S256x1024_1_0_0_1_n_n.lhsIdx i k 1).val = (k ⟨0, by decide⟩).val :=
  dot_S256x2048_S2048x1024_S256x1024_1_0_0_1_n_n.lhsIdx_val_of_single rfl i k

theorem rhs_pos (i : S256x1024.Idx) (k : dot_S256x2048_S2048x1024_S256x1024_1_0_0_1_n_n.contr.Idx) :
    (dot_S256x2048_S2048x1024_S256x1024_1_0_0_1_n_n.rhsIdx i k 0).val = (k ⟨0, by decide⟩).val :=
  dot_S256x2048_S2048x1024_S256x1024_1_0_0_1_n_n.rhsIdx_val_of_single rfl i k

theorem rhs_col (i : S256x1024.Idx) (k : dot_S256x2048_S2048x1024_S256x1024_1_0_0_1_n_n.contr.Idx) :
    (dot_S256x2048_S2048x1024_S256x1024_1_0_0_1_n_n.rhsIdx i k 1).val = (i 1).val := by
  unfold DotDims.rhsIdx
  rw [dif_neg (show ¬(1 : Fin S2048x1024.rank) ∈ dot_S256x2048_S2048x1024_S256x1024_1_0_0_1_n_n.rhsBatch by decide),
    dif_pos (show (1 : Fin S2048x1024.rank) ∈ dot_S256x2048_S2048x1024_S256x1024_1_0_0_1_n_n.rhsNonContracting by decide)]
  rfl

/-- The product into a zero block, at entry (p, q): row p of the left operand against column q of the right one. -/
theorem product_apply (a : FVec Ideal S256x2048 .bf16) (b : FVec Ideal S2048x1024 .bf16) (p : Fin 256) (q : Fin 1024) :
    matmul dot_S256x2048_S2048x1024_S256x1024_1_0_0_1_n_n none a b (constant (F := Ideal) S256x1024 .f32 0x00000000#32) (ix2 p q)
      = ∑ k : Fin 2048, a (ix2 p k) * b (ix2 k q) := by
  simp only [matmul]
  rw [Ideal.matmul_constant_zero_apply,
    ← Equiv.sum_comp (contrEquiv1 dot_S256x2048_S2048x1024_S256x1024_1_0_0_1_n_n 2048 rfl rfl).symm]
  refine Finset.sum_congr rfl fun k _ => ?_
  have hk := contrEquiv1_symm_val dot_S256x2048_S2048x1024_S256x1024_1_0_0_1_n_n 2048 rfl rfl k
  have el : dot_S256x2048_S2048x1024_S256x1024_1_0_0_1_n_n.lhsIdx (ix2 p q)
      ((contrEquiv1 dot_S256x2048_S2048x1024_S256x1024_1_0_0_1_n_n 2048 rfl rfl).symm k) = ix2 p k :=
    funext fun ax => Fin.ext (by
      match ax with
      | ⟨0, _⟩ => exact lhs_row _ _
      | ⟨1, _⟩ => exact (lhs_pos _ _).trans hk)
  have er : dot_S256x2048_S2048x1024_S256x1024_1_0_0_1_n_n.rhsIdx (ix2 p q)
      ((contrEquiv1 dot_S256x2048_S2048x1024_S256x1024_1_0_0_1_n_n 2048 rfl rfl).symm k) = ix2 k q :=
    funext fun ax => Fin.ext (by
      match ax with
      | ⟨0, _⟩ => exact (rhs_pos _ _).trans hk
      | ⟨1, _⟩ => exact rhs_col _ _)
  rw [el, er]

/-- The x block flattened over (token, feature), at (p, k): the block's entry (p, k / 256, k % 256). -/
theorem flat_x (x0 : Vec Ideal S256x8x256 .f32) (p : Fin 256) (k : Fin 2048) :
    shapeCast S256x2048 (truncf (F := Ideal) .bf16 x0 bitsLt_bf16_f32 : FVec Ideal S256x8x256 .bf16) shapeCasts_S256x8x256_S256x2048 (ix2 p k)
      = at3 x0 p.val (k.val / 256) (k.val % 256) := by
  have hk := k.isLt
  refine (shapeCast_apply _ _ (ix2 p k)
    (ix3 p (⟨k.val / 256, by omega⟩ : Fin 8) (⟨k.val % 256, Nat.mod_lt _ (by decide)⟩ : Fin 256)) ?_).trans ?_
  · rw [Shape.rowMajor_val_three, Shape.rowMajor_val_two]
    show (p.val * 8 + k.val / 256) * 256 + k.val % 256 = p.val * 2048 + k.val
    omega
  · exact (at3_of_val x0 _ rfl rfl rfl).symm

/-- The w block flattened over (token, feature), at (k, q): the block's entry (k / 256, k % 256, q). -/
theorem flat_w (x1 : Vec Ideal S8x256x1024 .f32) (k : Fin 2048) (q : Fin 1024) :
    shapeCast S2048x1024 (truncf (F := Ideal) .bf16 x1 bitsLt_bf16_f32 : FVec Ideal S8x256x1024 .bf16) shapeCasts_S8x256x1024_S2048x1024 (ix2 k q)
      = at3 x1 (k.val / 256) (k.val % 256) q.val := by
  have hk := k.isLt
  refine (shapeCast_apply _ _ (ix2 k q)
    (ix3 (⟨k.val / 256, by omega⟩ : Fin 8) (⟨k.val % 256, Nat.mod_lt _ (by decide)⟩ : Fin 256) q) ?_).trans ?_
  · rw [Shape.rowMajor_val_three, Shape.rowMajor_val_two]
    show ((k.val / 256) * 256 + k.val % 256) * 1024 + q.val = k.val * 1024 + q.val
    have := Nat.div_add_mod k.val 256
    omega
  · exact (at3_of_val x1 _ rfl rfl rfl).symm

/-- The zero block. -/
theorem zero_apply (j : S256x1024.Idx) : k0_pay1 (F := Ideal) j = 0 := Ideal.ofBits_zero_f32

/-- One grid point's step at entry (p, q): what the block held, plus the point's 2048 products. -/
theorem step_apply (acc : Vec Ideal S256x1024 .f32) (x0 : Vec Ideal S256x8x256 .f32) (x1 : Vec Ideal S8x256x1024 .f32)
    (p : Fin 256) (q : Fin 1024) :
    k0_pay2 acc x0 x1 (ix2 p q)
      = acc (ix2 p q) + ∑ r ∈ Finset.range 2048, at3 x0 p.val (r / 256) (r % 256) * at3 x1 (r / 256) (r % 256) q.val := by
  unfold k0_pay2
  refine congrArg₂ (· + ·) (congrFun (shapeCast_self acc _) _) ?_
  refine (product_apply _ _ p q).trans ?_
  rw [← Fin.sum_univ_eq_sum_range (fun r => at3 x0 p.val (r / 256) (r % 256) * at3 x1 (r / 256) (r % 256) q.val) 2048]
  exact Finset.sum_congr rfl fun k _ => congrArg₂ (· * ·) (flat_x x0 p k) (flat_w x1 k q)

/-- The last grid point's closing at entry (p, q): add the bias row's entry, multiply by the scale row's. -/
theorem close_apply (acc : Vec Ideal S256x1024 .f32) (x2 x3 : Vec Ideal S1x1024 .f32) (p : Fin 256) (q : Fin 1024) :
    k0_pay3 acc x2 x3 (ix2 p q) = (acc (ix2 p q) + x2 (ix2 (0 : Fin 1) q)) * x3 (ix2 (0 : Fin 1) q) := by
  unfold k0_pay3
  refine congrArg₂ (· * ·) (congrArg₂ (· + ·) (congrFun (shapeCast_self acc _) _) ?_) ?_
  · exact broadcastTo_1b_ab_apply x2 _ p q
  · exact broadcastTo_1b_ab_apply x3 _ p q

end Cert.KernelIdeal.Payload

end
-- ==== Proof.KernelFold.lean ====
/-
  The kernel's result array as the specification.

  The output block [256, 1024] stays resident over the 16 grid points: point 0 zeroes it, every point n adds the
  products of tokens 8n .. 8n + 7 (flat positions 2048 n .. 2048 n + 2047 of the contraction), and point 15 then
  adds the bias row and multiplies by the scale row. Read at an entry, the block after point 15 is therefore
  ((0 + sum over n < 15 of chunk n) + chunk 15 + bias) * scale, and the 16 chunks of 2048 consecutive positions
  are the whole contraction of 32768 positions.
-/
import proofs.«148201_g2000206349046742_pallaspilot1_57_14_alg».proof.Proof.Gen.KernelIdeal.Value
import proofs.«148201_g2000206349046742_pallaspilot1_57_14_alg».proof.Proof.KernelPayload
import proofs.«148201_g2000206349046742_pallaspilot1_57_14_alg».proof.Proof.Contraction

noncomputable section

namespace Cert.KernelIdeal.Fold

open Cert.KernelIdeal Cert.KernelIdeal.Gen Cert.KernelIdeal.Value Cert.KernelIdeal.Payload Cert.Contraction
open Idealize.ShloMosaic Idealize.ShloMosaic.TcCoe Idealize.ShloMosaic.ValueIdx Idealize.SL.Sem

variable (m : (ℓ : Loc nD τ sig) → Buf (Elt Ideal) ℓ)

/-! ## Where each window's block sits at a grid point -/

/-- The x block of point t is tokens 8t .. 8t + 7 of every row. -/
theorem x_index : ∀ t : Fin cfg0.N, win0_0.index t (0 : Fin 3) = 0 ∧ win0_0.index t (1 : Fin 3) = t.val ∧ win0_0.index t (2 : Fin 3) = 0 :=
  (by decide +kernel : ∀ t : Fin grid0.N, _)

/-- The w block of point t is tokens 8t .. 8t + 7, all features and columns. -/
theorem w_index : ∀ t : Fin cfg0.N, win0_1.index t (0 : Fin 3) = t.val ∧ win0_1.index t (1 : Fin 3) = 0 ∧ win0_1.index t (2 : Fin 3) = 0 :=
  (by decide +kernel : ∀ t : Fin grid0.N, _)

/-- The bias row and the scale row are each one block, the same at every point. -/
theorem b_index : ∀ t : Fin cfg0.N, win0_2.index t (0 : Fin 2) = 0 ∧ win0_2.index t (1 : Fin 2) = 0 :=
  (by decide +kernel : ∀ t : Fin grid0.N, _)
theorem s_index : ∀ t : Fin cfg0.N, win0_3.index t (0 : Fin 2) = 0 ∧ win0_3.index t (1 : Fin 2) = 0 :=
  (by decide +kernel : ∀ t : Fin grid0.N, _)

/-- Token u < 8 of the x block at point t is token 8t + u of x. -/
theorem x_block (c : Dev nD) (t : Fin cfg0.N) (p u d : ℕ) (hu : u < 8) :
    at3 (iblk m c 0 t : Vec Ideal S256x8x256 .f32) p u d = at3 (m ((c : Thread nD τ).loc main_arg0)) p (8 * t.val + u) d := by
  have ht : t.val < 16 := lt_of_lt_of_eq t.isLt N_0
  obtain ⟨e0, e1, e2⟩ := x_index t
  unfold at3
  by_cases hb : p < 256 ∧ d < 256
  · rw [dif_pos ⟨hb.1, hu, hb.2⟩, dif_pos ⟨hb.1, by omega, hb.2⟩]
    unfold iblk
    rw [View.read_apply]
    show V m c main_arg0 _ = m ((c : Thread nD τ).loc main_arg0) _
    unfold V
    refine congrArg _ (funext fun a => Fin.ext ?_)
    match a with
    | ⟨0, _⟩ => show win0_0.index t (0 : Fin 3) * 256 + 1 * p = p; rw [e0]; omega
    | ⟨1, _⟩ => show win0_0.index t (1 : Fin 3) * 8 + 1 * u = 8 * t.val + u; rw [e1]; omega
    | ⟨2, _⟩ => show win0_0.index t (2 : Fin 3) * 256 + 1 * d = d; rw [e2]; omega
  · rw [dif_neg (fun h => hb ⟨h.1, h.2.2⟩), dif_neg (fun h => hb ⟨h.1, h.2.2⟩)]

/-- Token u < 8 of the w block at point t is token 8t + u of w. -/
theorem w_block (c : Dev nD) (t : Fin cfg0.N) (u d q : ℕ) (hu : u < 8) :
    at3 (iblk m c 1 t : Vec Ideal S8x256x1024 .f32) u d q = at3 (m ((c : Thread nD τ).loc main_arg1)) (8 * t.val + u) d q := by
  have ht : t.val < 16 := lt_of_lt_of_eq t.isLt N_0
  obtain ⟨e0, e1, e2⟩ := w_index t
  unfold at3
  by_cases hb : d < 256 ∧ q < 1024
  · rw [dif_pos ⟨hu, hb.1, hb.2⟩, dif_pos ⟨by omega, hb.1, hb.2⟩]
    unfold iblk
    rw [View.read_apply]
    show V m c main_arg1 _ = m ((c : Thread nD τ).loc main_arg1) _
    unfold V
    refine congrArg _ (funext fun a => Fin.ext ?_)
    match a with
    | ⟨0, _⟩ => show win0_1.index t (0 : Fin 3) * 8 + 1 * u = 8 * t.val + u; rw [e0]; omega
    | ⟨1, _⟩ => show win0_1.index t (1 : Fin 3) * 256 + 1 * d = d; rw [e1]; omega
    | ⟨2, _⟩ => show win0_1.index t (2 : Fin 3) * 1024 + 1 * q = q; rw [e2]; omega
  · rw [dif_neg (fun h => hb h.2), dif_neg (fun h => hb h.2)]

/-- The bias block at any point is the bias row. -/
theorem b_block (c : Dev nD) (t : Fin cfg0.N) (q : Fin 1024) :
    (iblk m c 2 t : Vec Ideal S1x1024 .f32) (ix2 (0 : Fin 1) q) = m ((c : Thread nD τ).loc main_arg2) (ix2 (0 : Fin 1) q) := by
  obtain ⟨e0, e1⟩ := b_index t
  unfold iblk
  rw [View.read_apply]
  show V m c main_arg2 _ = m ((c : Thread nD τ).loc main_arg2) _
  unfold V
  refine congrArg _ (funext fun a => Fin.ext ?_)
  match a with
  | ⟨0, _⟩ => show win0_2.index t (0 : Fin 2) * 1 + 1 * 0 = 0; rw [e0]
  | ⟨1, _⟩ => show win0_2.index t (1 : Fin 2) * 1024 + 1 * q.val = q.val; rw [e1]; omega

/-- The scale block at any point is the scale row. -/
theorem s_block (c : Dev nD) (t : Fin cfg0.N) (q : Fin 1024) :
    (iblk m c 3 t : Vec Ideal S1x1024 .f32) (ix2 (0 : Fin 1) q) = m ((c : Thread nD τ).loc main_arg3) (ix2 (0 : Fin 1) q) := by
  obtain ⟨e0, e1⟩ := s_index t
  unfold iblk
  rw [View.read_apply]
  show V m c main_arg3 _ = m ((c : Thread nD τ).loc main_arg3) _
  unfold V
  refine congrArg _ (funext fun a => Fin.ext ?_)
  match a with
  | ⟨0, _⟩ => show win0_3.index t (0 : Fin 2) * 1 + 1 * 0 = 0; rw [e0]
  | ⟨1, _⟩ => show win0_3.index t (1 : Fin 2) * 1024 + 1 * q.val = q.val; rw [e1]; omega

/-! ## One grid point's addend, and the fold of all sixteen -/

/-- What grid point n adds at entry y: positions 2048 n .. 2048 n + 2047 of the contraction. -/
def chunk (c : Dev nD) (n : ℕ) (y : S256x1024.Idx) : EReal :=
  ∑ r ∈ Finset.range 2048,
    term (m ((c : Thread nD τ).loc main_arg0)) (m ((c : Thread nD τ).loc main_arg1)) (y 0).val (y 1).val (2048 * n + r)

/-- The step at grid point n adds that point's chunk to what the block held. -/
theorem step_point (c : Dev nD) (n : ℕ) (h : n < cfg0.N) (acc : Vec Ideal S256x1024 .f32) (y : S256x1024.Idx) :
    k0_pay2 acc (iblk m c 0 ⟨n, h⟩) (iblk m c 1 ⟨n, h⟩) y = acc y + chunk m c n y := by
  obtain ⟨p, q, rfl⟩ : ∃ (p : Fin 256) (q : Fin 1024), y = ix2 p q := ⟨y 0, y 1, eq_ix2 y⟩
  refine (step_apply acc _ _ p q).trans ?_
  refine congrArg (acc (ix2 p q) + ·) ?_
  unfold chunk
  refine Finset.sum_congr rfl fun r hr => ?_
  have hr' : r < 2048 := Finset.mem_range.mp hr
  refine (congrArg₂ (· * ·) (x_block m c ⟨n, h⟩ p.val (r / 256) (r % 256) (by omega))
    (w_block m c ⟨n, h⟩ (r / 256) (r % 256) q.val (by omega))).trans ?_
  unfold term
  have e1 : (2048 * n + r) / 256 = 8 * n + r / 256 := by omega
  have e2 : (2048 * n + r) % 256 = r % 256 := by omega
  rw [e1, e2]

/-- The array the kernel's run ends with is the specification of the four arguments. -/
theorem result_eq (c : Dev nD) :
    G4 m c = G (m ((c : Thread nD τ).loc main_arg0)) (m ((c : Thread nD τ).loc main_arg1))
      (m ((c : Thread nD τ).loc main_arg2)) (m ((c : Thread nD τ).loc main_arg3)) := by
  funext i
  obtain ⟨p, q, rfl⟩ : ∃ (p : Fin 256) (q : Fin 1024), i = ix2 p q := ⟨i 0, i 1, eq_ix2 i⟩
  have hN : cfg0.N = 16 := N_0
  have hp := p.isLt
  have hq := q.isLt
  have hr : run4Of (ix2 p q) = 0 := by
    show 1 * (p.val / 256 - 0) + 1 * (q.val / 1024 - 0) = 0
    omega
  have hl : loc4Of (ix2 p q) = ix2 p q := by
    funext a; apply Fin.ext
    match a with
    | ⟨0, _⟩ => show p.val % 256 = p.val; omega
    | ⟨1, _⟩ => show q.val % 1024 = q.val; omega
  have ha : ∀ (h : 0 < cfg0.N) (y : S256x1024.Idx), reset4 m c 0 h y = (fun _ => (0 : EReal)) y + chunk m c 0 y := by
    intro h y
    unfold reset4
    refine (step_point m c 0 h _ y).trans ?_
    exact congrArg (· + chunk m c 0 y) (zero_apply y)
  have hg : ∀ (n : ℕ) (h : n < cfg0.N) (acc : S256x1024.Idx → EReal) (y : S256x1024.Idx), 0 < n → n ≤ 0 + 14 →
      step4 m c n h acc y = acc y + chunk m c n y := by
    intro n h acc y h0 h14
    unfold step4
    rw [if_pos (by omega)]
    exact step_point m c n h acc y
  have e : ∀ (b : ℕ) (h : b + 15 < cfg0.N) (h' : 0 + 15 < cfg0.N), b = 0 →
      Pipeline.accAt (reset4 m c) (step4 m c) b 15 h = Pipeline.accAt (reset4 m c) (step4 m c) 0 15 h' := by
    intro b h h' hb; subst hb; rfl
  have hlast : ∀ (n : ℕ) (h : n < cfg0.N) (acc : S256x1024.Idx → EReal), n % 16 = 15 →
      step4 m c n h acc = k0_pay3 (k0_pay2 acc (iblk m c 0 ⟨n, h⟩) (iblk m c 1 ⟨n, h⟩)) (iblk m c 2 ⟨n, h⟩) (iblk m c 3 ⟨n, h⟩) := by
    intro n h acc hn
    unfold step4
    rw [if_neg (by omega), if_pos (by omega)]
  unfold G4
  rw [dif_pos (by rw [hr, hN]; omega), hl, e _ _ (by rw [hN]; omega) (by rw [hr]), Pipeline.accAt_succ]
  refine (congrFun (hlast _ _ _ (by omega)) _).trans ?_
  refine (close_apply _ _ _ p q).trans ?_
  unfold G
  refine congrArg₂ (· * ·) (congrArg₂ (· + ·) ?_ (b_block m c _ q)) (s_block m c _ q)
  refine (step_point m c _ _ _ (ix2 p q)).trans ?_
  rw [Pipeline.accAt_add_apply (reset4 m c) (step4 m c) (fun _ => (0 : EReal)) (chunk m c) 0 14 ha hg 14 le_rfl _ (ix2 p q)]
  show (0 + ∑ s ∈ Finset.range 15, chunk m c (0 + s) (ix2 p q)) + chunk m c 15 (ix2 p q) = _
  simp only [Nat.zero_add, zero_add]
  rw [← Finset.sum_range_succ (fun s => chunk m c s (ix2 p q)) 15]
  unfold chunk
  exact sum_chunks (fun r => term (m ((c : Thread nD τ).loc main_arg0)) (m ((c : Thread nD τ).loc main_arg1)) p.val q.val r) 2048 16

end Cert.KernelIdeal.Fold

end
-- ==== Proof.RefPieces.lean ====
/-
  What each control case of the reference's body leaves behind, as a term of the values it loaded.

  The body keeps a [256, 128] accumulator between grid points. At the first token of an output tile it stores zero
  into the accumulator and then the step's value over that zero; at every other token it stores the step's value over
  what the accumulator held; at the last token it also stores, into the output block, the closing value of the
  accumulator it has just updated. Each store covers its whole buffer, so what a buffer holds afterwards is the
  last value stored into it, and a load that follows a store reads that stored value.
-/
import proofs.«148201_g2000206349046742_pallaspilot1_57_14_alg».proof.Proof.Gen.ReferenceIdeal.Value
import Idealize.ShloMosaic.Lib.Pipeline.Value
import Idealize.ShloMosaic.Lib.Tactic

noncomputable section

namespace Cert.ReferenceIdeal.Pieces

open Cert.ReferenceIdeal Cert.ReferenceIdeal.Gen Idealize.ShloMosaic Idealize.ShloMosaic.TcCoe Idealize.ShloMosaic.Tactic
open Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- First token of a tile: the accumulator ends at the step's value over zero. -/
theorem acc_first (c : Dev nD) (i : grid0.Coords) (arg2 : Memref sig .tc .vmem S1x256x256 .f32) (harg2 : arg2.IsWhole) (arg3 : Memref sig .tc .vmem S1x256x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S256x128 .f32) (harg6 : arg6.IsWhole) (arg7 : Memref sig .tc .vmem S256x128 .f32) (harg7 : arg7.IsWhole) (hc0 : cond0_0 i) (hc1 : ¬cond0_1 i) (x0 : Vec F S1x256x256 .f32) (x1 : Vec F S1x256x128 .f32) (x2 : Vec F S1x128 .f32) (x3 : Vec F S1x128 .f32) :
    sout0_A_0 c i arg2 harg2 arg3 harg3 arg4 harg4 arg5 harg5 arg6 harg6 arg7 harg7 hc0 hc1 x0 x1 x2 x3 = k0_pay2 (k0_pay1 (F := F)) x0 x1 := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  try sl_unfold_words
  rw [View.canon_cons_unit_zero (S := S256x128) hz2, View.readCov_unit_zero (S := S256x128) _ hz2]
  simp only [View.readAt_eq_ld, harg2.read_unread, harg3.read_unread, harg4.read_unread, harg5.read_unread, harg7.read_unread, View.ld_unit_zero (S := S1x128) hz2, View.ld_unit_zero (S := S256x128) hz2, View.ld_unit_zero (S := S1x256x256) hz3, View.ld_unit_zero (S := S1x256x128) hz3, shapeCast_self]

/-- A middle token: the accumulator ends at the step's value over what it held. -/
theorem acc_middle (c : Dev nD) (i : grid0.Coords) (arg2 : Memref sig .tc .vmem S1x256x256 .f32) (harg2 : arg2.IsWhole) (arg3 : Memref sig .tc .vmem S1x256x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S256x128 .f32) (harg6 : arg6.IsWhole) (arg7 : Memref sig .tc .vmem S256x128 .f32) (harg7 : arg7.IsWhole) (hc0 : ¬cond0_0 i) (hc1 : ¬cond0_1 i) (x0 : Vec F S1x256x256 .f32) (x1 : Vec F S1x256x128 .f32) (x2 : Vec F S1x128 .f32) (x3 : Vec F S1x128 .f32) (xs0 : Vec F S256x128 .f32) :
    sout0_B_0 c i arg2 harg2 arg3 harg3 arg4 harg4 arg5 harg5 arg6 harg6 arg7 harg7 hc0 hc1 x0 x1 x2 x3 xs0 = k0_pay2 xs0 x0 x1 := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  try sl_unfold_words
  rw [View.canon_unit_zero (S := S256x128) hz2]
  simp only [View.readAt_eq_ld, harg2.read_unread, harg3.read_unread, harg4.read_unread, harg5.read_unread, harg7.read_unread, View.ld_unit_zero (S := S1x128) hz2, View.ld_unit_zero (S := S256x128) hz2, View.ld_unit_zero (S := S1x256x256) hz3, View.ld_unit_zero (S := S1x256x128) hz3, shapeCast_self]

/-- The last token: the accumulator again ends at the step's value over what it held, -/
theorem acc_last (c : Dev nD) (i : grid0.Coords) (arg2 : Memref sig .tc .vmem S1x256x256 .f32) (harg2 : arg2.IsWhole) (arg3 : Memref sig .tc .vmem S1x256x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S256x128 .f32) (harg6 : arg6.IsWhole) (arg7 : Memref sig .tc .vmem S256x128 .f32) (harg7 : arg7.IsWhole) (hc0 : ¬cond0_0 i) (hc1 : cond0_1 i) (x0 : Vec F S1x256x256 .f32) (x1 : Vec F S1x256x128 .f32) (x2 : Vec F S1x128 .f32) (x3 : Vec F S1x128 .f32) (xs0 : Vec F S256x128 .f32) :
    sout0_C_0 c i arg2 harg2 arg3 harg3 arg4 harg4 arg5 harg5 arg6 harg6 arg7 harg7 hc0 hc1 x0 x1 x2 x3 xs0 = k0_pay2 xs0 x0 x1 := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  try sl_unfold_words
  rw [View.canon_unit_zero (S := S256x128) hz2]
  simp only [View.readAt_eq_ld, harg2.read_unread, harg3.read_unread, harg4.read_unread, harg5.read_unread, harg7.read_unread, View.ld_unit_zero (S := S1x128) hz2, View.ld_unit_zero (S := S256x128) hz2, View.ld_unit_zero (S := S1x256x256) hz3, View.ld_unit_zero (S := S1x256x128) hz3, shapeCast_self]

/-- and the output block ends at the closing value of that updated accumulator. -/
theorem out_last (c : Dev nD) (i : grid0.Coords) (arg2 : Memref sig .tc .vmem S1x256x256 .f32) (harg2 : arg2.IsWhole) (arg3 : Memref sig .tc .vmem S1x256x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S256x128 .f32) (harg6 : arg6.IsWhole) (arg7 : Memref sig .tc .vmem S256x128 .f32) (harg7 : arg7.IsWhole) (hc0 : ¬cond0_0 i) (hc1 : cond0_1 i) (x0 : Vec F S1x256x256 .f32) (x1 : Vec F S1x256x128 .f32) (x2 : Vec F S1x128 .f32) (x3 : Vec F S1x128 .f32) (xs0 : Vec F S256x128 .f32) :
    out0_C_4 c i arg2 harg2 arg3 harg3 arg4 harg4 arg5 harg5 arg6 harg6 arg7 harg7 hc0 hc1 x0 x1 x2 x3 xs0 = k0_pay3 (k0_pay2 xs0 x0 x1) x2 x3 := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  try sl_unfold_words
  rw [View.canon_unit_zero (S := S256x128) hz2, View.readCov_unit_zero (S := S256x128) _ hz2]
  simp only [View.readAt_eq_ld, harg2.read_unread, harg3.read_unread, harg4.read_unread, harg5.read_unread, harg7.read_unread, View.ld_unit_zero (S := S1x128) hz2, View.ld_unit_zero (S := S256x128) hz2, View.ld_unit_zero (S := S1x256x256) hz3, View.ld_unit_zero (S := S1x256x128) hz3, shapeCast_self]

end Cert.ReferenceIdeal.Pieces

end
-- ==== Proof.RefPayload.lean ====
/-
  The reference body's three stored values, read at an entry (p, n) of a [256, 128] tile, over the extended reals.

  * the first token of a tile stores 0 everywhere into the accumulator;
  * every token adds the product of the token's x slab [1, 256, 256] (row, feature) and w slab [1, 256, 128]
    (feature, column of the tile): entry (p, n) gains the sum over features d < 256 of x[0, p, d] * w[0, d, n]
    (the product unit accumulates into a zero block);
  * the last token's closing adds the bias row's entry and multiplies by the scale row's.
-/
import proofs.«148201_g2000206349046742_pallaspilot1_57_14_alg».proof.Proof.Gen.ReferenceIdeal.Skeleton
import proofs.«148201_g2000206349046742_pallaspilot1_57_14_alg».proof.Proof.Contraction
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.Payload

open Cert.ReferenceIdeal Cert.ReferenceIdeal.Gen Idealize.ShloMosaic Idealize.ShloMosaic.ValueIdx Cert.Contraction

/-! ## The product's operand indices: row and feature on the left, feature and column on the right -/

theorem lhs_row (i : S256x128.Idx) (k : dot_S256x256_S256x128_S256x128_1_0_0_1_n_n.contr.Idx) : (dot_S256x256_S256x128_S256x128_1_0_0_1_n_n.lhsIdx i k 0).val = (i 0).val := by
  unfold DotDims.lhsIdx
  rw [dif_neg (show ¬(0 : Fin S256x256.rank) ∈ dot_S256x256_S256x128_S256x128_1_0_0_1_n_n.lhsBatch by decide),
    dif_pos (show (0 : Fin S256x256.rank) ∈ dot_S256x256_S256x128_S256x128_1_0_0_1_n_n.lhsNonContracting by decide)]
  rfl

theorem lhs_pos (i : S256x128.Idx) (k : dot_S256x256_S256x128_S256x128_1_0_0_1_n_n.contr.Idx) : (dot_S256x256_S256x128_S256x128_1_0_0_1_n_n.lhsIdx i k 1).val = (k ⟨0, by decide⟩).val :=
  dot_S256x256_S256x128_S256x128_1_0_0_1_n_n.lhsIdx_val_of_single rfl i k

theorem rhs_pos (i : S256x128.Idx) (k : dot_S256x256_S256x128_S256x128_1_0_0_1_n_n.contr.Idx) : (dot_S256x256_S256x128_S256x128_1_0_0_1_n_n.rhsIdx i k 0).val = (k ⟨0, by decide⟩).val :=
  dot_S256x256_S256x128_S256x128_1_0_0_1_n_n.rhsIdx_val_of_single rfl i k

theorem rhs_col (i : S256x128.Idx) (k : dot_S256x256_S256x128_S256x128_1_0_0_1_n_n.contr.Idx) : (dot_S256x256_S256x128_S256x128_1_0_0_1_n_n.rhsIdx i k 1).val = (i 1).val := by
  unfold DotDims.rhsIdx
  rw [dif_neg (show ¬(1 : Fin S256x128.rank) ∈ dot_S256x256_S256x128_S256x128_1_0_0_1_n_n.rhsBatch by decide),
    dif_pos (show (1 : Fin S256x128.rank) ∈ dot_S256x256_S256x128_S256x128_1_0_0_1_n_n.rhsNonContracting by decide)]
  rfl

/-- The product into a zero block, at entry (p, n): row p of the left operand against column n of the right one. -/
theorem product_apply (a : FVec Ideal S256x256 .f32) (b : FVec Ideal S256x128 .f32) (p : Fin 256) (n : Fin 128) :
    matmul dot_S256x256_S256x128_S256x128_1_0_0_1_n_n none a b (constant (F := Ideal) S256x128 .f32 0x00000000#32) (ix2 p n)
      = ∑ k : Fin 256, a (ix2 p k) * b (ix2 k n) := by
  simp only [matmul]
  rw [Ideal.matmul_constant_zero_apply, ← Equiv.sum_comp (contrEquiv1 dot_S256x256_S256x128_S256x128_1_0_0_1_n_n 256 rfl rfl).symm]
  refine Finset.sum_congr rfl fun k _ => ?_
  have hk := contrEquiv1_symm_val dot_S256x256_S256x128_S256x128_1_0_0_1_n_n 256 rfl rfl k
  have el : dot_S256x256_S256x128_S256x128_1_0_0_1_n_n.lhsIdx (ix2 p n) ((contrEquiv1 dot_S256x256_S256x128_S256x128_1_0_0_1_n_n 256 rfl rfl).symm k) = ix2 p k :=
    funext fun ax => Fin.ext (by
      match ax with
      | ⟨0, _⟩ => exact lhs_row _ _
      | ⟨1, _⟩ => exact (lhs_pos _ _).trans hk)
  have er : dot_S256x256_S256x128_S256x128_1_0_0_1_n_n.rhsIdx (ix2 p n) ((contrEquiv1 dot_S256x256_S256x128_S256x128_1_0_0_1_n_n 256 rfl rfl).symm k) = ix2 k n :=
    funext fun ax => Fin.ext (by
      match ax with
      | ⟨0, _⟩ => exact (rhs_pos _ _).trans hk
      | ⟨1, _⟩ => exact rhs_col _ _)
  rw [el, er]

/-- The zero block. -/
theorem zero_apply (j : S256x128.Idx) : k0_pay1 (F := Ideal) j = 0 := by
  unfold k0_pay1
  exact (congrFun (shapeCast_self _ _) j).trans Ideal.ofBits_zero_f32

/-- One token's step at entry (p, n): what the accumulator held, plus the token's 256 products. -/
theorem step_apply (acc : Vec Ideal S256x128 .f32) (x0 : Vec Ideal S1x256x256 .f32) (x1 : Vec Ideal S1x256x128 .f32)
    (p : Fin 256) (n : Fin 128) :
    k0_pay2 acc x0 x1 (ix2 p n)
      = acc (ix2 p n) + ∑ d ∈ Finset.range 256, at3 x0 0 p.val d * at3 x1 0 d n.val := by
  unfold k0_pay2
  refine (congrFun (shapeCast_self _ _) _).trans ?_
  refine congrArg (acc (ix2 p n) + ·) ?_
  refine (product_apply _ _ p n).trans ?_
  rw [← Fin.sum_univ_eq_sum_range (fun d => at3 x0 0 p.val d * at3 x1 0 d n.val) 256]
  refine Finset.sum_congr rfl fun k _ => congrArg₂ (· * ·) ?_ ?_
  · exact (shapeCast_1ab_ab_apply x0 _ p k).trans (at3_of_val x0 _ rfl rfl rfl).symm
  · exact (shapeCast_1ab_ab_apply x1 _ k n).trans (at3_of_val x1 _ rfl rfl rfl).symm

/-- The last token's closing at entry (p, n): add the bias row's entry, multiply by the scale row's. -/
theorem close_apply (acc : Vec Ideal S256x128 .f32) (x2 x3 : Vec Ideal S1x128 .f32) (p : Fin 256) (n : Fin 128) :
    k0_pay3 acc x2 x3 (ix2 p n) = (acc (ix2 p n) + x2 (ix2 (0 : Fin 1) n)) * x3 (ix2 (0 : Fin 1) n) := by
  unfold k0_pay3
  refine congrArg₂ (· * ·) (congrArg (acc (ix2 p n) + ·) ?_) ?_
  · exact broadcastTo_1b_ab_apply x2 _ p n
  · exact broadcastTo_1b_ab_apply x3 _ p n

end Cert.ReferenceIdeal.Payload

end
-- ==== Proof.RefFold.lean ====
/-
  The reference's result array as the specification.

  The reference first exchanges the row and token axes of x, then walks a grid of 8 output tiles of 128 columns by
  128 tokens, tile by tile. Within tile j the accumulator [256, 128] is zeroed at token 0 and gains at token u the
  products over the 256 features of that token, for the tile's columns 128 j .. 128 j + 127: flat positions
  256 u .. 256 u + 255 of the contraction. At token 127 the accumulator therefore holds the whole contraction of
  32768 positions (128 chunks of 256), and the output tile written there is that, plus the bias row, times the scale
  row, at the tile's columns. The eight tiles written at the eight last tokens tile the [256, 1024] result.
-/
import proofs.«148201_g2000206349046742_pallaspilot1_57_14_alg».proof.Proof.Gen.ReferenceIdeal.Value
import proofs.«148201_g2000206349046742_pallaspilot1_57_14_alg».proof.Proof.RefPieces
import proofs.«148201_g2000206349046742_pallaspilot1_57_14_alg».proof.Proof.RefPayload
import proofs.«148201_g2000206349046742_pallaspilot1_57_14_alg».proof.Proof.Contraction
import Idealize.ShloMosaic.Lib.StableHlo.Run

noncomputable section

namespace Cert.ReferenceIdeal.Fold

open Cert.ReferenceIdeal Cert.ReferenceIdeal.Gen Cert.ReferenceIdeal.Value Cert.ReferenceIdeal.Pieces
open Cert.ReferenceIdeal.Payload Cert.Contraction
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## Where each window's block sits at grid point t: tile t / 128, token t % 128 -/

theorem x_index : ∀ t : Fin cfg0.N, win0_0.index t (0 : Fin 3) = t.val % 128 ∧ win0_0.index t (1 : Fin 3) = 0 ∧ win0_0.index t (2 : Fin 3) = 0 :=
  (by decide +kernel : ∀ t : Fin grid0.N, _)
theorem w_index : ∀ t : Fin cfg0.N, win0_1.index t (0 : Fin 3) = t.val % 128 ∧ win0_1.index t (1 : Fin 3) = 0 ∧ win0_1.index t (2 : Fin 3) = t.val / 128 :=
  (by decide +kernel : ∀ t : Fin grid0.N, _)
theorem b_index : ∀ t : Fin cfg0.N, win0_2.index t (0 : Fin 2) = 0 ∧ win0_2.index t (1 : Fin 2) = t.val / 128 :=
  (by decide +kernel : ∀ t : Fin grid0.N, _)
theorem s_index : ∀ t : Fin cfg0.N, win0_3.index t (0 : Fin 2) = 0 ∧ win0_3.index t (1 : Fin 2) = t.val / 128 :=
  (by decide +kernel : ∀ t : Fin grid0.N, _)
theorem o_index : ∀ t : Fin cfg0.N, win0_4.index t (0 : Fin 2) = 0 ∧ win0_4.index t (1 : Fin 2) = t.val / 128 :=
  (by decide +kernel : ∀ t : Fin grid0.N, _)

/-- Column n of the tile of grid point t, as a column of the whole result. -/
def col (t : Fin cfg0.N) (n : Fin 128) : Fin 1024 :=
  ⟨128 * (t.val / 128) + n.val, by have := lt_of_lt_of_eq t.isLt N_0; have := n.isLt; omega⟩

/-- The array the grid stages as its first operand is x with the row and token axes exchanged. -/
theorem staged_x (c : Dev nD) :
    (V m c main_v0 : S128x256x256.Idx → EReal)
      = transpose S128x256x256 [1, 0, 2] (m ((c : Thread nD τ).loc main_arg0)) transposes_S256x128x256_S128x256x256_1_0_2 := by
  dsimp only [V, hostOps0]
  after_results

/-- The x slab at point t is token t % 128 of x, row by row. -/
theorem x_block (c : Dev nD) (t : Fin cfg0.N) (p d : ℕ) :
    at3 (iblk m c 0 t : Vec Ideal S1x256x256 .f32) 0 p d = at3 (m ((c : Thread nD τ).loc main_arg0)) p (t.val % 128) d := by
  obtain ⟨e0, e1, e2⟩ := x_index t
  unfold at3
  by_cases hb : p < 256 ∧ d < 256
  · rw [dif_pos ⟨by omega, hb.1, hb.2⟩, dif_pos ⟨hb.1, Nat.mod_lt _ (by omega), hb.2⟩]
    unfold iblk
    rw [View.read_apply]
    show V m c main_v0 _ = _
    refine (congrFun (staged_x m c) _).trans ?_
    refine transpose_apply _ _ _ _ _ fun b => ?_
    match b with
    | ⟨0, _⟩ => show t.val % 128 = win0_0.index t (0 : Fin 3) * 1 + 1 * 0; rw [e0]; omega
    | ⟨1, _⟩ => show p = win0_0.index t (1 : Fin 3) * 256 + 1 * p; rw [e1]; omega
    | ⟨2, _⟩ => show d = win0_0.index t (2 : Fin 3) * 256 + 1 * d; rw [e2]; omega
  · rw [dif_neg (fun h => hb ⟨h.2.1, h.2.2⟩), dif_neg (fun h => hb ⟨h.1, h.2.2⟩)]

/-- The w slab at point t is token t % 128 of w at the tile's columns. -/
theorem w_block (c : Dev nD) (t : Fin cfg0.N) (d n : ℕ) (hn : n < 128) :
    at3 (iblk m c 1 t : Vec Ideal S1x256x128 .f32) 0 d n = at3 (m ((c : Thread nD τ).loc main_arg1)) (t.val % 128) d (128 * (t.val / 128) + n) := by
  have ht : t.val < 1024 := lt_of_lt_of_eq t.isLt N_0
  obtain ⟨e0, e1, e2⟩ := w_index t
  unfold at3
  by_cases hb : d < 256
  · rw [dif_pos ⟨by omega, hb, hn⟩, dif_pos ⟨Nat.mod_lt _ (by omega), hb, by omega⟩]
    unfold iblk
    rw [View.read_apply]
    show V m c main_arg1 _ = m ((c : Thread nD τ).loc main_arg1) _
    rw [V_main_arg1]
    refine congrArg _ (funext fun a => Fin.ext ?_)
    match a with
    | ⟨0, _⟩ => show win0_1.index t (0 : Fin 3) * 1 + 1 * 0 = t.val % 128; rw [e0]; omega
    | ⟨1, _⟩ => show win0_1.index t (1 : Fin 3) * 256 + 1 * d = d; rw [e1]; omega
    | ⟨2, _⟩ => show win0_1.index t (2 : Fin 3) * 128 + 1 * n = 128 * (t.val / 128) + n; rw [e2]; omega
  · rw [dif_neg (fun h => hb h.2.1), dif_neg (fun h => hb h.2.1)]

/-- The bias slab at point t is the bias row at the tile's columns. -/
theorem b_block (c : Dev nD) (t : Fin cfg0.N) (n : Fin 128) :
    (iblk m c 2 t : Vec Ideal S1x128 .f32) (ix2 (0 : Fin 1) n) = (m ((c : Thread nD τ).loc main_arg2)) (ix2 (0 : Fin 1) (col t n)) := by
  obtain ⟨e0, e1⟩ := b_index t
  unfold iblk
  rw [View.read_apply]
  show V m c main_arg2 _ = m ((c : Thread nD τ).loc main_arg2) _
  rw [V_main_arg2]
  refine congrArg _ (funext fun a => Fin.ext ?_)
  match a with
  | ⟨0, _⟩ => show win0_2.index t (0 : Fin 2) * 1 + 1 * 0 = 0; rw [e0]
  | ⟨1, _⟩ => show win0_2.index t (1 : Fin 2) * 128 + 1 * n.val = 128 * (t.val / 128) + n.val; rw [e1]; omega

/-- The scale slab at point t is the scale row at the tile's columns. -/
theorem s_block (c : Dev nD) (t : Fin cfg0.N) (n : Fin 128) :
    (iblk m c 3 t : Vec Ideal S1x128 .f32) (ix2 (0 : Fin 1) n) = (m ((c : Thread nD τ).loc main_arg3)) (ix2 (0 : Fin 1) (col t n)) := by
  obtain ⟨e0, e1⟩ := s_index t
  unfold iblk
  rw [View.read_apply]
  show V m c main_arg3 _ = m ((c : Thread nD τ).loc main_arg3) _
  rw [V_main_arg3]
  refine congrArg _ (funext fun a => Fin.ext ?_)
  match a with
  | ⟨0, _⟩ => show win0_3.index t (0 : Fin 2) * 1 + 1 * 0 = 0; rw [e0]
  | ⟨1, _⟩ => show win0_3.index t (1 : Fin 2) * 128 + 1 * n.val = 128 * (t.val / 128) + n.val; rw [e1]; omega

/-! ## One grid point's addend, and the accumulator over a tile's 128 tokens -/

/-- What grid point n adds at entry y of its tile: positions 256 (n % 128) .. 256 (n % 128) + 255 of the contraction,
    for the tile's column 128 (n / 128) + y 1. -/
def chunk (c : Dev nD) (n : ℕ) (y : S256x128.Idx) : EReal :=
  ∑ d ∈ Finset.range 256, term (m ((c : Thread nD τ).loc main_arg0)) (m ((c : Thread nD τ).loc main_arg1)) (y 0).val (128 * (n / 128) + (y 1).val) (256 * (n % 128) + d)

/-- The step at grid point n adds that point's chunk to what the accumulator held. -/
theorem step_point (c : Dev nD) (n : ℕ) (h : n < cfg0.N) (acc : Vec Ideal S256x128 .f32) (y : S256x128.Idx) :
    k0_pay2 acc (iblk m c 0 ⟨n, h⟩) (iblk m c 1 ⟨n, h⟩) y = acc y + chunk m c n y := by
  obtain ⟨p, q, rfl⟩ : ∃ (p : Fin 256) (q : Fin 128), y = ix2 p q := ⟨y 0, y 1, eq_ix2 y⟩
  refine (step_apply acc _ _ p q).trans ?_
  refine congrArg (acc (ix2 p q) + ·) ?_
  unfold chunk
  refine Finset.sum_congr rfl fun d hd => ?_
  have hd' : d < 256 := Finset.mem_range.mp hd
  refine (congrArg₂ (· * ·) (x_block m c ⟨n, h⟩ p.val d) (w_block m c ⟨n, h⟩ d q.val q.isLt)).trans ?_
  unfold term
  have e1 : (256 * (n % 128) + d) / 256 = n % 128 := by omega
  have e2 : (256 * (n % 128) + d) % 256 = d := by omega
  rw [e1, e2]

/-- At a tile's first token the accumulator ends at the step over zero, whatever it held. -/
theorem acc_reset (c : Dev nD) (n : ℕ) (hb : n < cfg0.N) (acc : Vec Ideal S256x128 .f32) (h0 : n % 128 = 0) :
    scAt0_0 m c n hb acc = k0_pay2 (k0_pay1 (F := Ideal)) (iblk m c 0 ⟨n, hb⟩) (iblk m c 1 ⟨n, hb⟩) := by
  have h1 : ¬n % 128 = 127 := by omega
  unfold scAt0_0
  rw [dif_pos h0, dif_neg h1]
  exact acc_first ..

/-- At every other token it ends at the step over what it held. -/
theorem acc_next (c : Dev nD) (n : ℕ) (hb : n < cfg0.N) (acc : Vec Ideal S256x128 .f32) (h0 : ¬n % 128 = 0) :
    scAt0_0 m c n hb acc = k0_pay2 acc (iblk m c 0 ⟨n, hb⟩) (iblk m c 1 ⟨n, hb⟩) := by
  unfold scAt0_0
  rw [dif_neg h0]
  by_cases h1 : n % 128 = 127
  · rw [dif_pos h1]; exact acc_last ..
  · rw [dif_neg h1]; exact acc_middle ..

/-- After a tile's last token the accumulator holds the whole contraction, at the tile's columns. -/
theorem acc_full (c : Dev nD) (t : Fin cfg0.N) (h1 : t.val % 128 = 127) (y : S256x128.Idx) :
    (outsAt0 m c t.val t.isLt).2 y = dotTo (m ((c : Thread nD τ).loc main_arg0)) (m ((c : Thread nD τ).loc main_arg1)) (y 0).val (128 * (t.val / 128) + (y 1).val) 32768 := by
  have ht : t.val < 1024 := lt_of_lt_of_eq t.isLt N_0
  have hN : cfg0.N = 1024 := N_0
  have ha : ∀ (h : 128 * (t.val / 128) < cfg0.N) (y : S256x128.Idx),
      scAt0_0 m c (128 * (t.val / 128)) h (VS0_0.read (Elt Ideal) VS0_0.junk) y
        = (fun _ => (0 : EReal)) y + chunk m c (128 * (t.val / 128)) y := by
    intro h y
    rw [acc_reset m c _ h _ (by omega)]
    refine (step_point m c _ h _ y).trans ?_
    exact congrArg (· + chunk m c (128 * (t.val / 128)) y) (zero_apply y)
  have hg : ∀ (n : ℕ) (h : n < cfg0.N) (acc : S256x128.Idx → EReal) (y : S256x128.Idx),
      128 * (t.val / 128) < n → n ≤ 128 * (t.val / 128) + 127 → scAt0_0 m c n h acc y = acc y + chunk m c n y := by
    intro n h acc y hlo hhi
    rw [acc_next m c n h acc (by omega)]
    exact step_point m c n h acc y
  have e : ∀ (j : ℕ) (h : 128 * (t.val / 128) + j < cfg0.N) (h' : 128 * (t.val / 128) + 127 < cfg0.N), j = 127 →
      Pipeline.accAt (fun n h => scAt0_0 m c n h (VS0_0.read (Elt Ideal) VS0_0.junk)) (scAt0_0 m c) (128 * (t.val / 128)) j h
        = Pipeline.accAt (fun n h => scAt0_0 m c n h (VS0_0.read (Elt Ideal) VS0_0.junk)) (scAt0_0 m c) (128 * (t.val / 128)) 127 h' := by
    intro j h h' hj; subst hj; rfl
  rw [soutsAt0_0_eq m c t, e _ _ (lt_of_lt_of_eq (by omega : 128 * (t.val / 128) + 127 < 1024) hN.symm) h1,
    Pipeline.accAt_add_apply _ (scAt0_0 m c) (fun _ => (0 : EReal)) (chunk m c) (128 * (t.val / 128)) 127 ha hg 127 le_rfl _ y]
  show (0 : EReal) + ∑ s ∈ Finset.range 128, chunk m c (128 * (t.val / 128) + s) y
    = ∑ r ∈ Finset.range (256 * 128), term (m ((c : Thread nD τ).loc main_arg0)) (m ((c : Thread nD τ).loc main_arg1)) (y 0).val (128 * (t.val / 128) + (y 1).val) r
  rw [zero_add, ← sum_chunks]
  refine Finset.sum_congr rfl fun s hs => ?_
  have hs' : s < 128 := Finset.mem_range.mp hs
  unfold chunk
  have e1 : (128 * (t.val / 128) + s) / 128 = t.val / 128 := by omega
  have e2 : (128 * (t.val / 128) + s) % 128 = s := by omega
  rw [e1, e2]

/-! ## The tile written at a tile's last token -/

/-- At a tile's last token the output block is the closing of the accumulator the same point has just updated. -/
theorem out_of_acc (c : Dev nD) (t : Fin cfg0.N) (h1 : t.val % 128 = 127) :
    (outsAt0 m c t.val t.isLt).1 = k0_pay3 (outsAt0 m c t.val t.isLt).2 (iblk m c 2 t) (iblk m c 3 t) := by
  have h0 : ¬t.val % 128 = 0 := by omega
  rw [outsAt0_C m c t h0 h1]
  dsimp only
  rw [out_last, acc_last]

/-- The whole result as the specification of the four arguments. -/
abbrev result (c : Dev nD) : Buf (Elt Ideal) ((c : Thread nD τ).loc main_v1) :=
  G (m ((c : Thread nD τ).loc main_arg0)) (m ((c : Thread nD τ).loc main_arg1)) (m ((c : Thread nD τ).loc main_arg2)) (m ((c : Thread nD τ).loc main_arg3))

/-- Entry (p, n) of the tile written at a tile's last token is the specification at the tile's column. -/
theorem tile_entry (c : Dev nD) (t : Fin cfg0.N) (h1 : t.val % 128 = 127) (p : Fin 256) (n : Fin 128) :
    (outsAt0 m c t.val t.isLt).1 (ix2 p n) = result m c (ix2 p (col t n)) := by
  rw [out_of_acc m c t h1]
  refine (close_apply _ _ _ p n).trans ?_
  exact congrArg₂ (· * ·) (congrArg₂ (· + ·) (acc_full m c t h1 (ix2 p n)) (b_block m c t n)) (s_block m c t n)

/-- What a tile's last token writes back is that tile of the specification. -/
theorem flushed_eq (c : Dev nD) (t : Fin cfg0.N) (hf : (cfg0.win 4).flush t = true) :
    (dats m 0 c).flushed 4 t = ((cfg0.win 4).blk t).view.read (Elt Ideal) (result m c) := by
  have h1 : t.val % 128 = 127 := (flush0_4 t).mp hf
  obtain ⟨e0, e1⟩ := o_index t
  show (cfg0.win 4).cut (grid0.coords t) ((dats m 0 c).after 4 t) = _
  rw [after0_4]
  funext y
  have hy0 : (y 0).val < 256 := (y 0).isLt
  have hy1 : (y 1).val < 128 := (y 1).isLt
  show (outsAt0 m c t.val t.isLt).1 ((cfg0.win 4).xinj (grid0.coords t) y) = result m c (((cfg0.win 4).blk t).view.emb y)
  have ex : (cfg0.win 4).xinj (grid0.coords t) y = ix2 (⟨(y 0).val, hy0⟩ : Fin 256) (⟨(y 1).val, hy1⟩ : Fin 128) :=
    funext fun a => Fin.ext (by
      match a with
      | ⟨0, _⟩ => rfl
      | ⟨1, _⟩ => rfl)
  have eb : ((cfg0.win 4).blk t).view.emb y = ix2 (⟨(y 0).val, hy0⟩ : Fin 256) (col t ⟨(y 1).val, hy1⟩) :=
    funext fun a => Fin.ext (by
      match a with
      | ⟨0, _⟩ => show win0_4.index t (0 : Fin 2) * 256 + 1 * (y 0).val = (y 0).val; rw [e0]; omega
      | ⟨1, _⟩ => show win0_4.index t (1 : Fin 2) * 128 + 1 * (y 1).val = 128 * (t.val / 128) + (y 1).val; rw [e1]; omega)
  rw [ex, eb]
  exact tile_entry m c t h1 _ _

/-! ## The eight tiles tile the result -/

/-- An index of the result is in point t's tile iff each coordinate is in the tile's range on its axis. -/
theorem mem_tile (t : Fin cfg0.N) (i : S256x1024.Idx) :
    i ∈ ((cfg0.win 4).blk t).view.set ↔ ∀ a : Fin 2, win0_4.index t a * S256x128.size a ≤ (i a).val ∧ (i a).val < win0_4.index t a * S256x128.size a + S256x128.size a := by
  show i ∈ ((View.whole main_v1).slice (win0_4.rect t)).set ↔ _
  rw [View.set_slice_whole, Rect.mem_set_unit]
  exact Iff.rfl

/-- Every index of the result is in the tile written at the last token of its column's tile. -/
theorem covered (i : S256x1024.Idx) :
    ∃ t : Fin cfg0.N, (cfg0.win 4).flush t = true ∧ i ∈ ((cfg0.win 4).blk t).view.set := by
  have hi0 : (i 0).val < 256 := (i 0).isLt
  have hi1 : (i 1).val < 1024 := (i 1).isLt
  have hN : cfg0.N = 1024 := N_0
  refine ⟨⟨128 * ((i 1).val / 128) + 127, by rw [hN]; omega⟩, (flush0_4 _).mpr (by show (128 * ((i 1).val / 128) + 127) % 128 = 127; omega), ?_⟩
  rw [mem_tile]
  obtain ⟨e0, e1⟩ := o_index ⟨128 * ((i 1).val / 128) + 127, by rw [hN]; omega⟩
  intro a
  match a with
  | ⟨0, _⟩ =>
    show win0_4.index _ (0 : Fin 2) * 256 ≤ (i 0).val ∧ (i 0).val < win0_4.index _ (0 : Fin 2) * 256 + 256
    rw [e0]; omega
  | ⟨1, _⟩ =>
    show win0_4.index _ (1 : Fin 2) * 128 ≤ (i 1).val ∧ (i 1).val < win0_4.index _ (1 : Fin 2) * 128 + 128
    rw [e1]
    show (128 * ((i 1).val / 128) + 127) / 128 * 128 ≤ (i 1).val ∧ (i 1).val < (128 * ((i 1).val / 128) + 127) / 128 * 128 + 128
    omega

/-- The result array after the run is the specification. -/
theorem final (c : Dev nD) : (dats m 0 c).arrAt 4 cfg0.N = result m c :=
  (dats m 0 c).arrAt_eq_of_cover 4 _ (fun t hf => flushed_eq m c t hf) (fun i => covered i)

/-- The reference's run: it ends with the result array at the specification and the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.ReferenceIdeal.Fold

end
-- ==== Proof.lean ====
/-
  The kernel and its reference compute the same [256, 1024] array over the extended reals:

      y[p, q] = (sum over tokens t < 128 and features d < 256 of x[p, t, d] * w[t, d, q]  +  b[0, q]) * s[0, q].

  The kernel keeps the whole result resident over 16 grid points, each adding the products of 8 tokens (a
  contraction chunk of 2048 flat positions), and closes with the bias and the scale at the last point. The reference
  exchanges the row and token axes of x and walks 8 column tiles by 128 tokens, adding one token (a chunk of 256
  positions) per point into an accumulator and closing each tile at its last token. Both are the one contraction of
  32768 positions cut into consecutive chunks, so they agree by the associativity and commutativity of addition alone:
  nothing is distributed, cancelled or moved across the sum, and the finiteness of the inputs is never used. The
  kernel narrows its operands to a shorter float format before multiplying, which is the identity on extended
  reals; the idealized kernel is the kernel's own text, so the conjunct relating the two is trivial.

  Modules: Contraction (the result as one function of the arguments, and the chunking law), KernelPayload and
  KernelFold (the kernel's stored values at an entry; its run's fold read as the result), RefPieces, RefPayload and
  RefFold (what each control case of the reference leaves; its stored values at an entry; its accumulator's fold,
  the tiles, and its run read as the result).
-/
import proofs.«148201_g2000206349046742_pallaspilot1_57_14_alg».proof.Defs
import proofs.«148201_g2000206349046742_pallaspilot1_57_14_alg».proof.Proof.Gen.Kernel
import proofs.«148201_g2000206349046742_pallaspilot1_57_14_alg».proof.Proof.Gen.Kernel.Frame
import proofs.«148201_g2000206349046742_pallaspilot1_57_14_alg».proof.Proof.Gen.KernelIdeal
import proofs.«148201_g2000206349046742_pallaspilot1_57_14_alg».proof.Proof.Gen.KernelIdeal.Frame
import proofs.«148201_g2000206349046742_pallaspilot1_57_14_alg».proof.Proof.Gen.ReferenceIdeal
import proofs.«148201_g2000206349046742_pallaspilot1_57_14_alg».proof.Proof.Gen.ReferenceIdeal.Frame
import proofs.«148201_g2000206349046742_pallaspilot1_57_14_alg».proof.Proof.Gen.Pre_finite_inputs
import proofs.«148201_g2000206349046742_pallaspilot1_57_14_alg».proof.Proof.KernelFold
import proofs.«148201_g2000206349046742_pallaspilot1_57_14_alg».proof.Proof.RefFold

noncomputable section

namespace Cert.Proof

open Idealize.ShloMosaic Idealize.SL.Sem

/-- Each program runs to the end without a fault and leaves its arguments as they were. -/
theorem frame_kernel : Cert.frame_Kernel := fun m ρ _ => Cert.Kernel.Gen.frame m ρ
theorem frame_kernel_ideal : Cert.frame_KernelIdeal := fun m ρ _ => Cert.KernelIdeal.Gen.frame m ρ
theorem frame_reference_ideal : Cert.frame_ReferenceIdeal := fun m ρ _ => Cert.ReferenceIdeal.Gen.frame m ρ

/-- The idealized kernel is the kernel's own text read over the extended reals: nothing was rewritten. -/
theorem preserves : Cert.preserves_Kernel_KernelIdeal := trivial

/-- From memories agreeing on the arguments, both programs end with the result at the one function of the arguments. -/
theorem algebraic : Cert.algebraic_KernelIdeal_ReferenceIdeal := by
  intro m ρ m' ρ' _ hagree
  refine ⟨fun c => Cert.Contraction.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)), ?_, ?_⟩
  · exact (θ_run Cert.KernelIdeal.defs _ _).mono
      (fun r h c => ⟨(h c).1.trans (Cert.KernelIdeal.Fold.result_eq m c), (h c).2⟩)
      (Cert.KernelIdeal.Value.run (F := Ideal) m ρ)
  · refine (θ_run Cert.ReferenceIdeal.defs _ _).mono (fun r h c => ⟨(h c).1.trans ?_, (h c).2⟩)
      (Cert.ReferenceIdeal.Fold.run m' ρ')
    show Cert.Contraction.G _ _ _ _ = Cert.Contraction.G _ _ _ _
    rw [← (hagree c).1, ← (hagree c).2.1, ← (hagree c).2.2.1, ← (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
